-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3 : Shape := ⟨3, ![32, 1024, 3]⟩
abbrev S300x3 : Shape := ⟨2, ![300, 3]⟩
abbrev S300x1 : Shape := ⟨2, ![300, 1]⟩
abbrev S_ : Shape := ⟨0, ![]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel
  bcast_S_S300x3 : S_.BroadcastsInDim S300x3 (![] : Fin 0 → Fin S300x3.rank)
  reducesTo_S300x3_S_d0_1 : S300x3.ReducesTo [0, 1] S_
  bcast_S_S300x1 : S_.BroadcastsInDim S300x1 (![] : Fin 0 → Fin S300x1.rank)
  reducesTo_S300x1_S_d0_1 : S300x1.ReducesTo [0, 1] S_

variable [Facts]

def fn {F : FTy → Type} [FloatOps F] (main_arg0 : FVec F S32x1024x3 .f32) (main_arg1 : FVec F S300x3 .f32) (main_arg2 : FVec F S300x1 .f32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  let main_v4 : FVec F S300x3 .f32 := Host.absf main_arg1
  let main_cst_0 : FVec F S_ .f32 := constant S_ .f32 0x7F800000#32
  let main_v5 : FVec F S300x3 .f32 := broadcastInDim S300x3 ![] bcast_S_S300x3 main_cst_0
  let main_v6 : IVec S300x3 1 := cmpf .olt main_v4 main_v5
  let main_c_1 : IVec S_ 1 := constantI S_ 1 1#1
  let main_v7 : IVec S_ 1 := (fun x v => Host.reduce IntOp.andi x v reducesTo_S300x3_S_d0_1 h_S_) main_v6 main_c_1
  let main_v8 : IVec S_ 1 := andi main_v3 main_v7
  let main_v9 : FVec F S300x1 .f32 := Host.absf main_arg2
  let main_cst_2 : FVec F S_ .f32 := constant S_ .f32 0x7F800000#32
  let main_v10 : FVec F S300x1 .f32 := broadcastInDim S300x1 ![] bcast_S_S300x1 main_cst_2
  let main_v11 : IVec S300x1 1 := cmpf .olt main_v9 main_v10
  let main_c_3 : IVec S_ 1 := constantI S_ 1 1#1
  let main_v12 : IVec S_ 1 := (fun x v => Host.reduce IntOp.andi x v reducesTo_S300x1_S_d0_1 h_S_) main_v11 main_c_3
  let main_v13 : IVec S_ 1 := andi main_v8 main_v12
  main_v13
-- ==== Kernel.lean ====
abbrev S32x1024x3 : Shape := ⟨3, ![32, 1024, 3]⟩
abbrev S300x3 : Shape := ⟨2, ![300, 3]⟩
abbrev S300x1 : Shape := ⟨2, ![300, 1]⟩
abbrev S3x300 : Shape := ⟨2, ![3, 300]⟩
abbrev S1x300 : Shape := ⟨2, ![1, 300]⟩
abbrev S32x1024x300 : Shape := ⟨3, ![32, 1024, 300]⟩
abbrev S1x1024x3 : Shape := ⟨3, ![1, 1024, 3]⟩
abbrev S1x1024x300 : Shape := ⟨3, ![1, 1024, 300]⟩
abbrev S1024x3 : Shape := ⟨2, ![1024, 3]⟩
abbrev S1024x1 : Shape := ⟨2, ![1024, 1]⟩
abbrev S1024x300 : Shape := ⟨2, ![1024, 300]⟩

abbrev nBuf : Space → Nat
  | .hbm => 6
  | .vmem => 6
  | .smem => 0
  | _ => 0

abbrev bufTy : (tb : Table) → Fin (tcTables nBuf tb) → BufTy
  | .hbm, ⟨0, _⟩ => ⟨S32x1024x3, .f32⟩
  | .hbm, ⟨1, _⟩ => ⟨S300x3, .f32⟩
  | .hbm, ⟨2, _⟩ => ⟨S300x1, .f32⟩
  | .hbm, ⟨3, _⟩ => ⟨S3x300, .f32⟩
  | .hbm, ⟨4, _⟩ => ⟨S1x300, .f32⟩
  | .hbm, ⟨5, _⟩ => ⟨S32x1024x300, .f32⟩
  | .local _ .vmem, ⟨0, _⟩ => ⟨S1x1024x3, .f32⟩
  | .local _ .vmem, ⟨1, _⟩ => ⟨S1x1024x3, .f32⟩
  | .local _ .vmem, ⟨2, _⟩ => ⟨S3x300, .f32⟩
  | .local _ .vmem, ⟨3, _⟩ => ⟨S1x300, .f32⟩
  | .local _ .vmem, ⟨4, _⟩ => ⟨S1x1024x300, .f32⟩
  | .local _ .vmem, ⟨5, _⟩ => ⟨S1x1024x300, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S300x3_S3x300_1_0 : S300x3.Transposes [1, 0] S3x300
  transposes_S300x1_S1x300_1_0 : S300x1.Transposes [1, 0] S1x300
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S3x300_S3x300_0_0 : ∀ a, (![0, 0] : Fin 2 → Nat) a + S3x300.size a ≤ S3x300.size a
  h_S3x300 : 0 < S3x300.numel
  shapeCasts_S3x300_S3x300 : S3x300.ShapeCasts S3x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  slices_S1024x3_o0_0_S1024x1 : S1024x3.Slices ![0, 0] S1024x1
  slices_S3x300_o0_0_S1x300 : S3x300.Slices ![0, 0] S1x300
  broadcasts_S1024x1_S1024x300 : S1024x1.Broadcasts S1024x300
  broadcasts_S1x300_S1024x300 : S1x300.Broadcasts S1024x300
  slices_S1024x3_o0_1_S1024x1 : S1024x3.Slices ![0, 1] S1024x1
  slices_S3x300_o1_0_S1x300 : S3x300.Slices ![1, 0] S1x300
  slices_S1024x3_o0_2_S1024x1 : S1024x3.Slices ![0, 2] S1024x1
  slices_S3x300_o2_0_S1x300 : S3x300.Slices ![2, 0] S1x300
  inb_S1x1024x300_S1x1024x300_0_0_0 : ∀ a, (![0, 0, 0] : Fin 3 → Nat) a + S1x1024x300.size a ≤ S1x1024x300.size a
  h_S1x1024x300 : 0 < S1x1024x300.numel
  shapeCasts_S1x1024x300_S1024x300 : S1x1024x300.ShapeCasts S1024x300
  shapeCasts_S1024x300_S1x1024x300 : S1024x300.ShapeCasts S1x1024x300
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S32x1024x3.size a
  hwx0_0 : ∀ i : grid0.Coords, EltTy.bits .f32 = 32 ∨ (Rect.block (s := S32x1024x3) S1x1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x300.size a ≤ S3x300.size a
  hwx0_1 : ∀ i : grid0.Coords, EltTy.bits .f32 = 32 ∨ (Rect.block (s := S3x300) S3x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x300.size a ≤ S32x1024x300.size a
  hwx0_3 : ∀ i : grid0.Coords, EltTy.bits .f32 = 32 ∨ (Rect.block (s := S32x1024x300) S1x1024x300.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x3 : Shape := ⟨3, ![32, 1024, 3]⟩
abbrev S300x3 : Shape := ⟨2, ![300, 3]⟩
abbrev S300x1 : Shape := ⟨2, ![300, 1]⟩
abbrev S_ : Shape := ⟨0, ![]⟩
abbrev S32x1024 : Shape := ⟨2, ![32, 1024]⟩
abbrev S300 : Shape := ⟨1, ![300]⟩
abbrev S32x1024x300 : Shape := ⟨3, ![32, 1024, 300]⟩
abbrev S32x1024x1 : Shape := ⟨3, ![32, 1024, 1]⟩
abbrev S1x1x300 : Shape := ⟨3, ![1, 1, 300]⟩

abbrev nBuf : Space → Nat
  | .hbm => 29
  | .vmem => 0
  | .smem => 0
  | _ => 0

abbrev bufTy : (tb : Table) → Fin (tcTables nBuf tb) → BufTy
  | .hbm, ⟨0, _⟩ => ⟨S32x1024x3, .f32⟩
  | .hbm, ⟨1, _⟩ => ⟨S300x3, .f32⟩
  | .hbm, ⟨2, _⟩ => ⟨S300x1, .f32⟩
  | .hbm, ⟨3, _⟩ => ⟨S32x1024x3, .f32⟩
  | .hbm, ⟨4, _⟩ => ⟨S_, .f32⟩
  | .hbm, ⟨5, _⟩ => ⟨S32x1024, .f32⟩
  | .hbm, ⟨6, _⟩ => ⟨S300x3, .f32⟩
  | .hbm, ⟨7, _⟩ => ⟨S_, .f32⟩
  | .hbm, ⟨8, _⟩ => ⟨S300, .f32⟩
  | .hbm, ⟨9, _⟩ => ⟨S32x1024x300, .f32⟩
  | .hbm, ⟨10, _⟩ => ⟨S32x1024x1, .f32⟩
  | .hbm, ⟨11, _⟩ => ⟨S_, .f32⟩
  | .hbm, ⟨12, _⟩ => ⟨S32x1024x300, .f32⟩
  | .hbm, ⟨13, _⟩ => ⟨S32x1024x300, .f32⟩
  | .hbm, ⟨14, _⟩ => ⟨S32x1024x300, .f32⟩
  | .hbm, ⟨15, _⟩ => ⟨S32x1024x300, .f32⟩
  | .hbm, ⟨16, _⟩ => ⟨S1x1x300, .f32⟩
  | .hbm, ⟨17, _⟩ => ⟨S32x1024x300, .f32⟩
  | .hbm, ⟨18, _⟩ => ⟨S32x1024x300, .f32⟩
  | .hbm, ⟨19, _⟩ => ⟨S300, .f32⟩
  | .hbm, ⟨20, _⟩ => ⟨S300, .f32⟩
  | .hbm, ⟨21, _⟩ => ⟨S_, .f32⟩
  | .hbm, ⟨22, _⟩ => ⟨S300, .f32⟩
  | .hbm, ⟨23, _⟩ => ⟨S300, .f32⟩
  | .hbm, ⟨24, _⟩ => ⟨S1x1x300, .f32⟩
  | .hbm, ⟨25, _⟩ => ⟨S1x1x300, .f32⟩
  | .hbm, ⟨26, _⟩ => ⟨S32x1024x300, .f32⟩
  | .hbm, ⟨27, _⟩ => ⟨S32x1024x300, .f32⟩
  | .hbm, ⟨28, _⟩ => ⟨S32x1024x300, .f32⟩
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  reducesTo_S32x1024x3_S32x1024_d2 : S32x1024x3.ReducesTo [2] S32x1024
  h_S_ : 0 < S_.numel
  reducesTo_S300x3_S300_d1 : S300x3.ReducesTo [1] S300
  bcast_S32x1024_S32x1024x1_0_1 : S32x1024.BroadcastsInDim S32x1024x1 (![0, 1] : Fin 2 → Fin S32x1024x1.rank)
  bcast_S_S32x1024x300 : S_.BroadcastsInDim S32x1024x300 (![] : Fin 0 → Fin S32x1024x300.rank)
  bcast_S32x1024x1_S32x1024x300_0_1_2 : S32x1024x1.BroadcastsInDim S32x1024x300 (![0, 1, 2] : Fin 3 → Fin S32x1024x300.rank)
  bcast_S300_S1x1x300_2 : S300.BroadcastsInDim S1x1x300 (![2] : Fin 1 → Fin S1x1x300.rank)
  bcast_S1x1x300_S32x1024x300_0_1_2 : S1x1x300.BroadcastsInDim S32x1024x300 (![0, 1, 2] : Fin 3 → Fin S32x1024x300.rank)
  shapeCasts_S300x1_S300 : S300x1.ShapeCasts S300
  bcast_S_S300 : S_.BroadcastsInDim S300 (![] : Fin 0 → Fin S300.rank)
  dot_S32x1024x3_S300x3_S32x1024x300_2_1_01_0_n_n_wf : DotDims.WF S32x1024x3 S300x3 S32x1024x300 [2] [1] [0, 1] [0] [] []

variable [Facts₀]

def dot_S32x1024x3_S300x3_S32x1024x300_2_1_01_0_n_n : DotDims S32x1024x3 S300x3 S32x1024x300 where
  lhsContracting := [2]
  rhsContracting := [1]
  lhsNonContracting := [0, 1]
  rhsNonContracting := [0]
  lhsBatch := []
  rhsBatch := []
  wf := dot_S32x1024x3_S300x3_S32x1024x300_2_1_01_0_n_n_wf

class Facts : Prop extends Facts₀ where

variable [Facts]
-- ==== Proof.RbfSpec.lean ====
/-
  The Gaussian radial-basis layer on the extended reals.

  A point `x` of three coordinates, a centre `c` of three coordinates and a width `s` give the response
  `exp (-(1 / s²) · ((‖x‖² − 2 ⟨x, c⟩) + ‖c‖²))`: the squared distance `‖x − c‖²` in its expanded form, scaled by the
  negated inverse square of the width. The layer evaluates it at every point of every batch against every
  centre: entry `(b, r, k)` of the result reads point `(b, r, ·)`, centre `(k, ·)` and width `(k, 0)`.

  The exponent is spelt in two ways. One unrolls the three-term sums from the left and negates by subtracting
  from zero; the other seeds the two sums of squares with a zero and negates outright. On the extended reals
  addition has a neutral zero and `0 - a = -a` holds for every `a`, infinite or not, so both are the response
  as defined here, whatever the arguments: no finiteness is used.
-/
import Idealize.ShloMosaic.PureOps.Ideal
import Idealize.ShloMosaic.PureOps.Ideal.Laws
import Idealize.ShloMosaic.Lib.ValueIdx

noncomputable section

namespace Cert.Rbf

open Idealize.ShloMosaic
open scoped BigOperators

/-- The float word of `1.0`, as the extended real it denotes. -/
abbrev one : EReal := Ideal.ofBits .f32 0x3F800000#32
/-- The float word of `2.0`, as the extended real it denotes. -/
abbrev two : EReal := Ideal.ofBits .f32 0x40000000#32

/-- One unit's response to one point: `exp (-(1 / s²) · ((Σ x² − 2 Σ x c) + Σ c²))`, every operation the
    extended reals' own (the quotient by `s²` included: it is total, so a zero width has a value too). -/
def response (x c : Fin 3 → EReal) (s : EReal) : EReal :=
  Ideal.exp (-(Ideal.div one (s * s)) *
    (((∑ f : Fin 3, x f * x f) - two * ∑ f : Fin 3, x f * c f) + ∑ f : Fin 3, c f * c f))

/-- The spelling that unrolls each sum from the left and negates by subtracting from zero. -/
theorem response_unrolled (x c : Fin 3 → EReal) (s : EReal) :
    Ideal.exp ((0 - Ideal.div one (s * s)) *
      ((((x 0 * x 0 + x 1 * x 1) + x 2 * x 2) - two * ((x 0 * c 0 + x 1 * c 1) + x 2 * c 2))
        + ((c 0 * c 0 + c 1 * c 1) + c 2 * c 2))) = response x c s := by
  unfold response
  rw [zero_sub, Fin.sum_univ_three, Fin.sum_univ_three, Fin.sum_univ_three]

/-- The spelling that seeds the two sums of squares with a zero and negates outright. -/
theorem response_seeded (x c : Fin 3 → EReal) (s : EReal) :
    Ideal.exp (-(Ideal.div one (s * s)) *
      (((0 + ∑ f : Fin 3, x f * x f) - two * ∑ f : Fin 3, x f * c f) + (0 + ∑ f : Fin 3, c f * c f)))
      = response x c s := by
  unfold response
  rw [zero_add, zero_add]

/-! ## The layer over its three arrays -/

/-- The points: 32 batches of 1024 points of 3 coordinates. -/
abbrev Pts : Shape := ⟨3, ![32, 1024, 3]⟩
/-- The centres: 300 of 3 coordinates. -/
abbrev Ctr : Shape := ⟨2, ![300, 3]⟩
/-- The widths: one per centre, held as a column. -/
abbrev Wid : Shape := ⟨2, ![300, 1]⟩
/-- The responses: per batch and point, one per centre. -/
abbrev Out : Shape := ⟨3, ![32, 1024, 300]⟩

/-- Coordinate `f` of the point that result entry `i` is about. -/
abbrev ptAt (i : Out.Idx) (f : Fin 3) : Pts.Idx := fun a => match a with
  | ⟨0, _⟩ => ⟨(i 0).val, (i 0).isLt⟩
  | ⟨1, _⟩ => ⟨(i 1).val, (i 1).isLt⟩
  | ⟨2, _⟩ => ⟨f.val, f.isLt⟩

/-- Coordinate `f` of the centre that result entry `i` is about. -/
abbrev ctrAt (i : Out.Idx) (f : Fin 3) : Ctr.Idx := fun a => match a with
  | ⟨0, _⟩ => ⟨(i 2).val, (i 2).isLt⟩
  | ⟨1, _⟩ => ⟨f.val, f.isLt⟩

/-- The width of the centre that result entry `i` is about. -/
abbrev widAt (i : Out.Idx) : Wid.Idx := fun a => match a with
  | ⟨0, _⟩ => ⟨(i 2).val, (i 2).isLt⟩
  | ⟨1, _⟩ => ⟨0, Nat.one_pos⟩

/-- The whole layer: entry `i = (b, r, k)` is unit `k`'s response to point `(b, r)`. -/
def layer (X : Pts.Idx → EReal) (C : Ctr.Idx → EReal) (W : Wid.Idx → EReal) : Out.Idx → EReal :=
  fun i => response (fun f => X (ptAt i f)) (fun f => C (ctrAt i f)) (W (widAt i))

end Cert.Rbf

end
-- ==== Proof.RefIsLayer.lean ====
/-
  The reference program computes the layer.

  Read one operation at a time, entry `i = (b, r, k)` of the reference's result is
  `exp (-(1 / s²) · (((0 + Σ x²) − 2 Σ x c) + (0 + Σ c²)))` with `x` the point `(b, r, ·)`, `c` the centre `(k, ·)` and
  `s` the width `(k, 0)`: the two sums of squares are host reductions seeded with a zero, the inner product is
  the contraction over the coordinate axis, the width column is flattened to a vector before it is squared, and
  every broadcast only repeats a value along the axes the result adds. Each index the operations compose is,
  coordinate by coordinate, the point, the centre or the width the entry is about; what is left is the seeded
  spelling of the response.
-/
import proofs.«118189_j89026082111666_2_alg».proof.Proof.Gen.ReferenceIdeal.Read
import proofs.«118189_j89026082111666_2_alg».proof.Proof.RbfSpec

noncomputable section

namespace Cert.Rbf.Ref

open Cert.ReferenceIdeal Cert.ReferenceIdeal.Read Idealize.ShloMosaic Cert.Rbf
open scoped BigOperators

variable (i : S32x1024x300.Idx)

/-- Through the two broadcasts, the negation's operand and the flattening, the width read is the entry's. -/
theorem width_idx : idx_main_v13 (idx_main_v17 (idx_main_v19 i)) = widAt i :=
  funext fun a => Fin.ext (by
    match a with
    | ⟨0, _⟩ => exact Nat.div_one _
    | ⟨1, _⟩ => rfl)

/-- Through the two broadcasts, the summed squares of a point are read at the entry's point. -/
theorem sq_point_idx (k : Fin 3) : idx_main_v1 (idx_main_v5 (idx_main_v8 i)) k = ptAt i k :=
  funext fun a => Fin.ext (by
    match a with
    | ⟨0, _⟩ => rfl
    | ⟨1, _⟩ => rfl
    | ⟨2, _⟩ => rfl)

/-- The contraction's left operand is read at the entry's point. -/
theorem dot_point_idx (k : Fin 3) : lidx_main_v4 i k = ptAt i k :=
  funext fun a => Fin.ext (by
    match a with
    | ⟨0, _⟩ => rfl
    | ⟨1, _⟩ => rfl
    | ⟨2, _⟩ => rfl)

/-- The contraction's right operand is read at the entry's centre. -/
theorem dot_centre_idx (k : Fin 3) : ridx_main_v4 i k = ctrAt i k :=
  funext fun a => Fin.ext (by
    match a with
    | ⟨0, _⟩ => rfl
    | ⟨1, _⟩ => rfl)

/-- Through the two broadcasts, the summed squares of a centre are read at the entry's centre. -/
theorem sq_centre_idx (k : Fin 3) : idx_main_v3 (idx_main_v10 (idx_main_v11 i)) k = ctrAt i k :=
  funext fun a => Fin.ext (by
    match a with
    | ⟨0, _⟩ => rfl
    | ⟨1, _⟩ => rfl)

/-- The reference's last stage, as a function of the three argument arrays, is the layer. -/
theorem result_eq_layer (x0 : (⟨S32x1024x3, .f32⟩ : BufTy).Contents (Elt Ideal))
    (x1 : (⟨S300x3, .f32⟩ : BufTy).Contents (Elt Ideal)) (x2 : (⟨S300x1, .f32⟩ : BufTy).Contents (Elt Ideal)) :
    val_main_v21 (F := Ideal) x0 x1 x2 = layer x0 x1 x2 := by
  funext i
  simp only [val_main_v21_apply, val_main_v20_apply, val_main_v19_apply, val_main_v18_apply, val_main_v17_apply,
    val_main_v16_apply, val_main_v15_apply, val_main_cst_2_apply, val_main_v14_apply, val_main_v13_apply,
    val_main_v12_apply, val_main_v11_apply, val_main_v10_apply, val_main_v9_apply, val_main_v8_apply, val_main_v7_apply,
    val_main_v6_apply, val_main_cst_1_apply, val_main_v5_apply, val_main_v4_apply, val_main_v3_apply, val_main_cst_0_apply,
    val_main_v2_apply, val_main_v1_apply, val_main_cst_apply, val_main_v0_apply]
  simp only [width_idx, sq_point_idx, dot_point_idx, dot_centre_idx, sq_centre_idx,
    Ideal.hostUnary_exp_def, Ideal.mulf_def, Ideal.hostNegf_def, Ideal.negf_def, Ideal.hostDivf_def, Ideal.addf_def,
    Ideal.subf_def, Ideal.ofBits_def, Ideal.ofBits_zero_f32]
  exact response_seeded _ _ _

end Cert.Rbf.Ref

end
-- ==== Proof.KernelBlock.lean ====
/-
  One entry of the block a grid point computes.

  At a grid point the body holds three blocks: the widths as a row `[1, 300]`, one batch of points `[1, 1024, 3]`
  and the centres laid coordinate-major `[3, 300]`. Entry `y = (0, r, k)` of the block it stores is built from
  row `r` of the points, column `k` of the centres and column `k` of the widths only: the three coordinate
  columns of the points and the three coordinate rows of the centres are multiplied pairwise and added from the
  left, for the two sums of squares and for the inner product, and the scaled exponent is negated by
  subtracting from zero. That is the unrolled spelling of the response, so the entry is the response of that
  point to that centre at that width, for arbitrary blocks.
-/
import proofs.«118189_j89026082111666_2_alg».proof.Proof.Gen.KernelIdeal.Value
import proofs.«118189_j89026082111666_2_alg».proof.Proof.RbfSpec

noncomputable section

open Idealize.ShloMosaic Idealize.ShloMosaic.TcCoe

namespace Cert.Rbf.Block

open Cert.KernelIdeal Cert.KernelIdeal.Gen Cert.KernelIdeal.Value Cert.Rbf

/-- Coordinate `f` of the point in the row of the batch that block entry `y` is about. -/
abbrev rowPt (y : S1x1024x300.Idx) (f : Fin 3) : S1x1024x3.Idx := fun a => match a with
  | ⟨0, _⟩ => ⟨0, Nat.one_pos⟩
  | ⟨1, _⟩ => ⟨(y 1).val, (y 1).isLt⟩
  | ⟨2, _⟩ => ⟨f.val, f.isLt⟩

/-- Coordinate `f` of the centre in the column that block entry `y` is about (coordinate-major). -/
abbrev colCtr (y : S1x1024x300.Idx) (f : Fin 3) : S3x300.Idx := fun a => match a with
  | ⟨0, _⟩ => ⟨f.val, f.isLt⟩
  | ⟨1, _⟩ => ⟨(y 2).val, (y 2).isLt⟩

/-- The width in the column that block entry `y` is about. -/
abbrev colWid (y : S1x1024x300.Idx) : S1x300.Idx := fun a => match a with
  | ⟨0, _⟩ => ⟨0, Nat.one_pos⟩
  | ⟨1, _⟩ => ⟨(y 2).val, (y 2).isLt⟩

/-- Two indices with the same coordinates on every axis are one index. -/
local macro "same_index" : tactic => `(tactic| (funext a; apply Fin.ext; fin_cases a <;> rfl))

/-- Entry `y` of what the body stores, as a function of its three loaded blocks, is the response of the point
    in row `y 1` to the centre in column `y 2` at the width in column `y 2`. -/
theorem entry_eq (P0 : Vec Ideal S1x300 .f32) (P1 : Vec Ideal S1x1024x3 .f32) (P2 : Vec Ideal S3x300 .f32)
    (y : S1x1024x300.Idx) :
    E3 P0 P1 P2 y = response (fun f => P1 (rowPt y f)) (fun f => P2 (colCtr y f)) (P0 (colWid y)) := by
  -- the width, squared
  have w0 : ix3_0 y = colWid y := by same_index
  have w1 : ix3_1 y = colWid y := by same_index
  -- the point's squares, coordinate by coordinate
  have p2 : ix3_2 y = rowPt y 0 := by same_index
  have p3 : ix3_3 y = rowPt y 0 := by same_index
  have p4 : ix3_4 y = rowPt y 1 := by same_index
  have p5 : ix3_5 y = rowPt y 1 := by same_index
  have p6 : ix3_6 y = rowPt y 2 := by same_index
  have p7 : ix3_7 y = rowPt y 2 := by same_index
  -- the inner product, coordinate by coordinate
  have p8 : ix3_8 y = rowPt y 0 := by same_index
  have c9 : ix3_9 y = colCtr y 0 := by same_index
  have p10 : ix3_10 y = rowPt y 1 := by same_index
  have c11 : ix3_11 y = colCtr y 1 := by same_index
  have p12 : ix3_12 y = rowPt y 2 := by same_index
  have c13 : ix3_13 y = colCtr y 2 := by same_index
  -- the centre's squares, coordinate by coordinate
  have c14 : ix3_14 y = colCtr y 0 := by same_index
  have c15 : ix3_15 y = colCtr y 0 := by same_index
  have c16 : ix3_16 y = colCtr y 1 := by same_index
  have c17 : ix3_17 y = colCtr y 1 := by same_index
  have c18 : ix3_18 y = colCtr y 2 := by same_index
  have c19 : ix3_19 y = colCtr y 2 := by same_index
  -- a float word read on the scalar unit denotes what it denotes on the vector unit
  have hs : ∀ b : BitVec 32, Scalar.ofBits (F := Ideal) .f32 b = Ideal.ofBits .f32 b := fun _ => rfl
  simp only [w0, w1, p2, p3, p4, p5, p6, p7, p8, c9, p10, c11, p12, c13, c14, c15, c16, c17, c18, c19, hs,
    Ideal.exp_def, Ideal.mulf_def, Ideal.subf_def, Ideal.divf_def, Ideal.addf_def, Ideal.ofBits_zero_f32]
  exact response_unrolled (fun f => P1 (rowPt y f)) (fun f => P2 (colCtr y f)) (P0 (colWid y))

end Cert.Rbf.Block

end
-- ==== Proof.KernelArray.lean ====
/-
  From the blocks the grid points write to the whole result array.

  The grid has one point per batch. Point `t` stages batch `t` of the points (a `[1, 1024, 3]` block), the whole of the
  centres and the whole of the widths, and writes back block `t` of the result, `[1, 1024, 300]`. The centres and the
  widths do not reach the region as the arguments hold them: before it, the host transposes the centres to
  coordinate-major `[3, 300]` and the width column to a row `[1, 300]`, so entry `(f, k)` of the staged centres is
  coordinate `f` of centre `k`, and entry `(0, k)` of the staged widths is width `k`.

  Hence entry `(0, r, k)` of the block point `t` writes is the response of point `(t, r)` to centre `k` at width
  `k`: it is entry `(t, r, k)` of the layer. The 32 blocks are the 32 batches of the result, so every entry of the
  result array lies in exactly the block of its batch, and the array ends holding the layer.
-/
import proofs.«118189_j89026082111666_2_alg».proof.Proof.Gen.KernelIdeal.Value
import proofs.«118189_j89026082111666_2_alg».proof.Proof.RbfSpec
import proofs.«118189_j89026082111666_2_alg».proof.Proof.KernelBlock
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.Rbf.Array

open Cert.KernelIdeal Cert.KernelIdeal.Gen Cert.KernelIdeal.Value Cert.Rbf Cert.Rbf.Block

variable (m : (ℓ : Loc nD τ sig) → Buf (Elt Ideal) ℓ) (ρ : Dev nD → PrngReg)

/-! ## What the region finds in the two arrays the host wrote -/

/-- The centres reach the region transposed: coordinate-major. -/
theorem centres_transposed (c : Dev nD) : (V m c main_v0 : S3x300.Idx → EReal)
    = transpose S3x300 [1, 0] (m ((c : Thread nD τ).loc main_arg1)) transposes_S300x3_S3x300_1_0 := by
  dsimp only [Gen.V, Gen.hostOps0]; after_results

/-- The widths reach the region transposed: a row instead of a column. -/
theorem widths_transposed (c : Dev nD) : (V m c main_v1 : S1x300.Idx → EReal)
    = transpose S1x300 [1, 0] (m ((c : Thread nD τ).loc main_arg2)) transposes_S300x1_S1x300_1_0 := by
  dsimp only [Gen.V, Gen.hostOps0]; after_results

/-! ## Where each window's block sits -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The four index maps over the 32 grid points: the points' and the result's blocks advance with the grid point
    along the batch axis and nowhere else; the centres' and the widths' one block stays at the origin. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The points' block at grid point `t` is batch `t`: its entry `(0, r, f)` is coordinate `f` of point `(t, r)`. -/
theorem point_block (c : Dev nD) (t : Fin cfg0.N) (j : S1x1024x3.Idx) (k : S32x1024x3.Idx)
    (h0 : (k 0).val = t.val) (h1 : (k 1).val = (j 1).val) (h2 : (k 2).val = (j 2).val) :
    (iblk m c 0 t : Vec Ideal S1x1024x3 .f32) j = m ((c : Thread nD τ).loc main_arg0) k := by
  obtain ⟨e0, e1, e2, -⟩ := index_maps t
  show V m c main_arg0 (((cfg0.win 0).blk t).view.emb j) = _
  rw [V_main_arg0]
  refine congrArg _ (funext fun a => Fin.ext ?_)
  have hj0 : (j 0).val < 1 := (j 0).isLt
  match a with
  | ⟨0, _⟩ => show win0_0.index t (0 : Fin 3) * 1 + 1 * (j 0).val = (k 0).val; omega
  | ⟨1, _⟩ => show win0_0.index t (1 : Fin 3) * 1024 + 1 * (j 1).val = (k 1).val; omega
  | ⟨2, _⟩ => show win0_0.index t (2 : Fin 3) * 3 + 1 * (j 2).val = (k 2).val; omega

/-- The centres' block at every grid point is the whole transposed array: its entry `(f, k)` is coordinate `f` of
    centre `k`. -/
theorem centre_block (c : Dev nD) (t : Fin cfg0.N) (j : S3x300.Idx) (k : S300x3.Idx)
    (h0 : (k 0).val = (j 1).val) (h1 : (k 1).val = (j 0).val) :
    (iblk m c 1 t : Vec Ideal S3x300 .f32) j = m ((c : Thread nD τ).loc main_arg1) k := by
  obtain ⟨-, -, -, e0, e1, -⟩ := index_maps t
  show (V m c main_v0 : S3x300.Idx → EReal) (((cfg0.win 1).blk t).view.emb j) = _
  rw [centres_transposed]
  refine transpose_apply _ _ _ _ k (fun b => ?_)
  match b with
  | ⟨0, _⟩ => show (k 1).val = win0_1.index t (0 : Fin 2) * 3 + 1 * (j 0).val; omega
  | ⟨1, _⟩ => show (k 0).val = win0_1.index t (1 : Fin 2) * 300 + 1 * (j 1).val; omega

/-- The widths' block at every grid point is the whole transposed array: its entry `(0, k)` is width `k`. -/
theorem width_block (c : Dev nD) (t : Fin cfg0.N) (j : S1x300.Idx) (k : S300x1.Idx)
    (h0 : (k 0).val = (j 1).val) :
    (iblk m c 2 t : Vec Ideal S1x300 .f32) j = m ((c : Thread nD τ).loc main_arg2) k := by
  obtain ⟨-, -, -, -, -, e0, e1, -⟩ := index_maps t
  show (V m c main_v1 : S1x300.Idx → EReal) (((cfg0.win 2).blk t).view.emb j) = _
  rw [widths_transposed]
  refine transpose_apply _ _ _ _ k (fun b => ?_)
  have hj0 : (j 0).val < 1 := (j 0).isLt
  have hk1 : (k 1).val < 1 := (k 1).isLt
  match b with
  | ⟨0, _⟩ => show (k 1).val = win0_2.index t (0 : Fin 2) * 1 + 1 * (j 0).val; omega
  | ⟨1, _⟩ => show (k 0).val = win0_2.index t (1 : Fin 2) * 300 + 1 * (j 1).val; omega

/-! ## The block a grid point writes, and the array they fill -/

/-- What grid point `t` writes back is block `t` of the layer of the three argument arrays. -/
theorem written_block (c : Dev nD) (t : Fin cfg0.N) :
    (dats m 0 c).flushed 3 t = ((cfg0.win 3).blk t).view.read (Elt Ideal)
      (layer (m ((c : Thread nD τ).loc main_arg0)) (m ((c : Thread nD τ).loc main_arg1))
        (m ((c : Thread nD τ).loc main_arg2))) := by
  rw [flushed3]
  unfold out0_3
  simp only [View.ld_unit_zero (S := S1x1024x3) zeros3, View.ld_unit_zero (S := S3x300) zeros2,
    View.ld_unit_zero (S := S1x300) zeros2]
  funext y
  obtain ⟨-, -, -, -, -, -, -, o0, o1, o2⟩ := index_maps t
  have hy0 : (y 0).val < 1 := (y 0).isLt
  -- the stored block is one function of the three loaded blocks, and that function is the response
  have hc := canon3_eq (F := Ideal) (iblk m c 2 t) (iblk m c 0 t) (iblk m c 1 t) y
  have he := entry_eq (iblk m c 2 t) (iblk m c 0 t) (iblk m c 1 t) y
  -- row `y 1` of the staged batch is point `(t, y 1)`
  have hx : (fun f : Fin 3 => (iblk m c 0 t : Vec Ideal S1x1024x3 .f32) (rowPt y f))
      = fun f => m ((c : Thread nD τ).loc main_arg0) (ptAt (((cfg0.win 3).blk t).view.emb y) f) :=
    funext fun f => point_block m c t (rowPt y f) (ptAt (((cfg0.win 3).blk t).view.emb y) f)
      (by show win0_3.index t (0 : Fin 3) * 1 + 1 * (y 0).val = t.val; omega)
      (by show win0_3.index t (1 : Fin 3) * 1024 + 1 * (y 1).val = (y 1).val; omega)
      rfl
  -- column `y 2` of the staged centres is centre `y 2`
  have hcn : (fun f : Fin 3 => (iblk m c 1 t : Vec Ideal S3x300 .f32) (colCtr y f))
      = fun f => m ((c : Thread nD τ).loc main_arg1) (ctrAt (((cfg0.win 3).blk t).view.emb y) f) :=
    funext fun f => centre_block m c t (colCtr y f) (ctrAt (((cfg0.win 3).blk t).view.emb y) f)
      (by show win0_3.index t (2 : Fin 3) * 300 + 1 * (y 2).val = (y 2).val; omega)
      rfl
  -- column `y 2` of the staged widths is width `y 2`
  have hw : (iblk m c 2 t : Vec Ideal S1x300 .f32) (colWid y)
      = m ((c : Thread nD τ).loc main_arg2) (widAt (((cfg0.win 3).blk t).view.emb y)) :=
    width_block m c t (colWid y) (widAt (((cfg0.win 3).blk t).view.emb y))
      (by show win0_3.index t (2 : Fin 3) * 300 + 1 * (y 2).val = (y 2).val; omega)
  show _ = layer (m ((c : Thread nD τ).loc main_arg0)) (m ((c : Thread nD τ).loc main_arg1))
    (m ((c : Thread nD τ).loc main_arg2)) (((cfg0.win 3).blk t).view.emb y)
  exact (hc.trans he).trans (congr (congr (congrArg response hx) hcn) hw)

/-- An entry of the result lies in the block of the grid point of its batch. -/
theorem mem_block (t : Fin cfg0.N) (i : S32x1024x300.Idx) (h : (i 0).val = t.val) :
    i ∈ ((cfg0.win 3).blk t).view.set := by
  obtain ⟨-, -, -, -, -, -, -, o0, o1, o2⟩ := index_maps t
  have hi1 : (i 1).val < 1024 := (i 1).isLt
  have hi2 : (i 2).val < 300 := (i 2).isLt
  show i ∈ ((View.whole main_v2).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 300 ≤ (i 2).val ∧ (i 2).val < win0_3.index t (2 : Fin 3) * 300 + 300; omega

/-- Every entry of the result is in some written block: the one of its batch (every grid point writes back). -/
theorem covered (i : S32x1024x300.Idx) :
    ∃ t : Fin cfg0.N, (cfg0.win 3).flush t = true ∧ i ∈ ((cfg0.win 3).blk t).view.set :=
  ⟨⟨(i 0).val, by rw [show cfg0.N = 32 from N_0]; exact (i 0).isLt⟩, flush0_3 _, mem_block _ i rfl⟩

/-- The result array after the run is the layer of the three argument arrays. -/
theorem result_array (c : Dev nD) : (dats m 0 c).arrAt 3 cfg0.N
    = layer (m ((c : Thread nD τ).loc main_arg0)) (m ((c : Thread nD τ).loc main_arg1))
        (m ((c : Thread nD τ).loc main_arg2)) :=
  (dats m 0 c).arrAt_eq_of_cover 3 _ (fun t _ => written_block m c t) covered

/-- The kernel's run: every weakly fair execution terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v2)
        = layer (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (run_blocks m ρ)

end Cert.Rbf.Array

end
-- ==== Proof.lean ====
/-
  A Gaussian radial-basis layer, tiled over batches, against its plain array formulation.

  Both programs take 32 batches of 1024 points in three coordinates, 300 centres and 300 widths, and return, for
  every point and every centre, `exp (-(1 / s²) · ((‖x‖² − 2 ⟨x, c⟩) + ‖c‖²))`: the squared distance from the point to the
  centre in its expanded form, scaled by the negated inverse square of the centre's width. The tiled program
  handles one batch per grid point, reads the centres coordinate-major and the widths as a row, and writes the
  three-term sums out; the array formulation uses two seeded sums of squares and one contraction. On the extended
  reals the two exponents are the same expression up to the neutral zero of a sum and `0 - a = -a`, the quotient
  by `s²` is one total function on both sides, and the exponential is one function on both sides; so the results
  are equal entry by entry for every input, and the finiteness of the inputs is not used.

  The layer as one function of the three arrays, and its two spellings: RbfSpec. The array formulation computes
  it: RefIsLayer. One entry of a grid point's block: KernelBlock. The blocks fill the result array: KernelArray.
  The tiled program as printed and as read on the extended reals differ by no rewrite, so nothing is owed for
  that conjunct.
-/
import proofs.«118189_j89026082111666_2_alg».proof.Defs
import proofs.«118189_j89026082111666_2_alg».proof.Proof.Gen.Kernel
import proofs.«118189_j89026082111666_2_alg».proof.Proof.Gen.Kernel.Skeleton
import proofs.«118189_j89026082111666_2_alg».proof.Proof.Gen.Kernel.Launch
import proofs.«118189_j89026082111666_2_alg».proof.Proof.Gen.Kernel.Points
import proofs.«118189_j89026082111666_2_alg».proof.Proof.Gen.Kernel.Frame
import proofs.«118189_j89026082111666_2_alg».proof.Proof.Gen.KernelIdeal
import proofs.«118189_j89026082111666_2_alg».proof.Proof.Gen.KernelIdeal.Skeleton
import proofs.«118189_j89026082111666_2_alg».proof.Proof.Gen.KernelIdeal.Launch
import proofs.«118189_j89026082111666_2_alg».proof.Proof.Gen.KernelIdeal.Points
import proofs.«118189_j89026082111666_2_alg».proof.Proof.Gen.KernelIdeal.Frame
import proofs.«118189_j89026082111666_2_alg».proof.Proof.Gen.ReferenceIdeal
import proofs.«118189_j89026082111666_2_alg».proof.Proof.Gen.Pre_finite_inputs
import proofs.«118189_j89026082111666_2_alg».proof.Proof.Gen.KernelIdeal.Value
import proofs.«118189_j89026082111666_2_alg».proof.Proof.Gen.ReferenceIdeal.Run
import proofs.«118189_j89026082111666_2_alg».proof.Proof.Gen.ReferenceIdeal.Read
import proofs.«118189_j89026082111666_2_alg».proof.Proof.RbfSpec
import proofs.«118189_j89026082111666_2_alg».proof.Proof.RefIsLayer
import proofs.«118189_j89026082111666_2_alg».proof.Proof.KernelBlock
import proofs.«118189_j89026082111666_2_alg».proof.Proof.KernelArray
import Idealize.ShloMosaic.Adequacy
import Idealize.ShloMosaic.Init

noncomputable section

namespace Cert.Proof

open Idealize.ShloMosaic Idealize.ShloMosaic.TcCoe Idealize.SL.Sem

/-- The tiled program, read word by word, runs to the end and leaves its three arguments as they were. -/
theorem frame_tiled : Cert.frame_Kernel := fun m ρ _ => Cert.Kernel.Gen.frame m ρ

/-- So does the tiled program read on the extended reals. -/
theorem frame_tiled_ideal : Cert.frame_KernelIdeal := fun m ρ _ => Cert.KernelIdeal.Gen.frame m ρ

/-- So does the array formulation: its run, with the result forgotten. -/
theorem frame_arrays : Cert.frame_ReferenceIdeal := fun m ρ _ =>
  (θ_run Cert.ReferenceIdeal.defs _ _).mono (fun _ h c => (h c).2) (Cert.ReferenceIdeal.Value.run (F := Ideal) m ρ)

/-- Reading the tiled program on the extended reals rewrote none of its operations. -/
theorem preserves : Cert.preserves_Kernel_KernelIdeal := trivial

/-- From memories that agree on the three arguments both programs end with the layer of those arguments in
    their result: the tiled one block by block, the array formulation operation by operation. -/
theorem algebraic : Cert.algebraic_KernelIdeal_ReferenceIdeal := by
  intro m ρ m' ρ' _ hagree
  refine ⟨fun c => Cert.Rbf.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Rbf.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Rbf.Ref.result_eq_layer, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_tiled, frame_tiled_ideal, frame_arrays, preserves, algebraic⟩

end Cert.Proof

end
